-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1x64 : Shape := ⟨3, ![4096, 1, 64]⟩
abbrev S4096x200x64 : Shape := ⟨3, ![4096, 200, 64]⟩
abbrev S4096x1 : Shape := ⟨2, ![4096, 1]⟩
abbrev S128x1 : Shape := ⟨2, ![128, 1]⟩
abbrev S1 : Shape := ⟨1, ![1]⟩
abbrev S_ : Shape := ⟨0, ![]⟩

class Facts : Prop where
  bcast_S_S4096x1x64 : S_.BroadcastsInDim S4096x1x64 (![] : Fin 0 → Fin S4096x1x64.rank)
  reducesTo_S4096x1x64_S_d0_1_2 : S4096x1x64.ReducesTo [0, 1, 2] S_
  h_S_ : 0 < S_.numel
  bcast_S_S4096x200x64 : S_.BroadcastsInDim S4096x200x64 (![] : Fin 0 → Fin S4096x200x64.rank)
  reducesTo_S4096x200x64_S_d0_1_2 : S4096x200x64.ReducesTo [0, 1, 2] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S4096x1x64 .f32) (main_arg1 : FVec F S4096x200x64 .f32) (main_arg2 : IVec S4096x1 32) (main_arg3 : FVec F S128x1 .f32) (main_arg4 : FVec F S1 .f32) : IVec S_ 1 :=
  let main_v0 : FVec F S4096x1x64 .f32 := Host.absf main_arg0
  let main_cst : FVec F S_ .f32 := constant S_ .f32 0x7F800000#32
  let main_v1 : FVec F S4096x1x64 .f32 := broadcastInDim S4096x1x64 ![] bcast_S_S4096x1x64 main_cst
  let main_v2 : IVec S4096x1x64 1 := cmpf .olt main_v0 main_v1
  let main_c : IVec S_ 1 := constantI S_ 1 1#1
  let main_v3 : IVec S_ 1 := (fun x v => Host.reduce IntOp.andi x v reducesTo_S4096x1x64_S_d0_1_2 h_S_) main_v2 main_c
  let main_v4 : FVec F S4096x200x64 .f32 := Host.absf main_arg1
  let main_cst_0 : FVec F S_ .f32 := constant S_ .f32 0x7F800000#32
  let main_v5 : FVec F S4096x200x64 .f32 := broadcastInDim S4096x200x64 ![] bcast_S_S4096x200x64 main_cst_0
  let main_v6 : IVec S4096x200x64 1 := cmpf .olt main_v4 main_v5
  let main_c_1 : IVec S_ 1 := constantI S_ 1 1#1
  let main_v7 : IVec S_ 1 := (fun x v => Host.reduce IntOp.andi x v reducesTo_S4096x200x64_S_d0_1_2 h_S_) main_v6 main_c_1
  let main_v8 : IVec S_ 1 := andi main_v3 main_v7
  let main_v9 : FVec F S128x1 .f32 := Host.absf main_arg3
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S4096x1x64 : Shape := ⟨3, ![4096, 1, 64]⟩
abbrev S4096x200x64 : Shape := ⟨3, ![4096, 200, 64]⟩
abbrev S4096x1 : Shape := ⟨2, ![4096, 1]⟩
abbrev S128x1 : Shape := ⟨2, ![128, 1]⟩
abbrev S1 : Shape := ⟨1, ![1]⟩
abbrev S1x1 : Shape := ⟨2, ![1, 1]⟩
abbrev S128x1x64 : Shape := ⟨3, ![128, 1, 64]⟩
abbrev S128x200x64 : Shape := ⟨3, ![128, 200, 64]⟩
abbrev S64x1 : Shape := ⟨2, ![64, 1]⟩
abbrev S64 : Shape := ⟨1, ![64]⟩
abbrev S1x1x64 : Shape := ⟨3, ![1, 1, 64]⟩
abbrev S128x200 : Shape := ⟨2, ![128, 200]⟩
abbrev S128 : Shape := ⟨1, ![128]⟩
abbrev S128x1x200 : Shape := ⟨3, ![128, 1, 200]⟩

abbrev nBuf : Space → Nat
  | .hbm => 7
  | .vmem => 10
  | .smem => 0
  | _ => 0

abbrev bufTy : (tb : Table) → Fin (tcTables nBuf tb) → BufTy
  | .hbm, ⟨0, _⟩ => ⟨S4096x1x64, .f32⟩
  | .hbm, ⟨1, _⟩ => ⟨S4096x200x64, .f32⟩
  | .hbm, ⟨2, _⟩ => ⟨S4096x1, .i32⟩
  | .hbm, ⟨3, _⟩ => ⟨S128x1, .f32⟩
  | .hbm, ⟨4, _⟩ => ⟨S1, .f32⟩
  | .hbm, ⟨5, _⟩ => ⟨S1x1, .f32⟩
  | .hbm, ⟨6, _⟩ => ⟨S4096x1x64, .f32⟩
  | .local _ .vmem, ⟨0, _⟩ => ⟨S128x1x64, .f32⟩
  | .local _ .vmem, ⟨1, _⟩ => ⟨S128x1x64, .f32⟩
  | .local _ .vmem, ⟨2, _⟩ => ⟨S128x200x64, .f32⟩
  | .local _ .vmem, ⟨3, _⟩ => ⟨S128x200x64, .f32⟩
  | .local _ .vmem, ⟨4, _⟩ => ⟨S128x1, .i32⟩
  | .local _ .vmem, ⟨5, _⟩ => ⟨S128x1, .i32⟩
  | .local _ .vmem, ⟨6, _⟩ => ⟨S128x1, .f32⟩
  | .local _ .vmem, ⟨7, _⟩ => ⟨S1x1, .f32⟩
  | .local _ .vmem, ⟨8, _⟩ => ⟨S128x1x64, .f32⟩
  | .local _ .vmem, ⟨9, _⟩ => ⟨S128x1x64, .f32⟩
  | _, _ => ⟨S4096x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x200x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1_S1x1 : S1.ShapeCasts S1x1
  inb_S128x1x64_S128x1x64_0_0_0 : ∀ a, (![0, 0, 0] : Fin 3 → Nat) a + S128x1x64.size a ≤ S128x1x64.size a
  h_S128x1x64 : 0 < S128x1x64.numel
  inb_S128x200x64_S128x200x64_0_0_0 : ∀ a, (![0, 0, 0] : Fin 3 → Nat) a + S128x200x64.size a ≤ S128x200x64.size a
  h_S128x200x64 : 0 < S128x200x64.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S128x1_o0_0_S64x1 : S128x1.Slices ![0, 0] S64x1
  shapeCasts_S64x1_S64 : S64x1.ShapeCasts S64
  slices_S128x1_o64_0_S64x1 : S128x1.Slices ![64, 0] S64x1
  shapeCasts_S64_S1x1x64 : S64.ShapeCasts S1x1x64
  broadcasts_S1x1x64_S128x1x64 : S1x1x64.Broadcasts S128x1x64
  reduces_S128x1x64_S128x1 : S128x1x64.Reduces [2] S128x1
  broadcasts_S1x1x64_S128x200x64 : S1x1x64.Broadcasts S128x200x64
  reduces_S128x200x64_S128x200 : S128x200x64.Reduces [2] S128x200
  broadcasts_S128x1_S128x200 : S128x1.Broadcasts S128x200
  broadcasts_S1x1_S128x200 : S1x1.Broadcasts S128x200
  iota_S128x200_d1_w32 : S128x200.Iotas .tc 32 [1]
  reduces_S128x200_S128 : S128x200.Reduces [1] S128
  shapeCasts_S128_S128x1 : S128.ShapeCasts S128x1
  shapeCasts_S128x200_S128x1x200 : S128x200.ShapeCasts S128x1x200
  bitsLt_bf16_f32 : FTy.bits .bf16 < FTy.bits .f32
  dot_S128x1x200_S128x200x64_S128x1x64_2_1_1_2_0_0_wf : DotDims.WF S128x1x200 S128x200x64 S128x1x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1x64.size a ≤ S4096x1x64.size a
  hwx0_0 : ∀ i : grid0.Coords, EltTy.bits .f32 = 32 ∨ (Rect.block (s := S4096x1x64) S128x1x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x200x64.size a ≤ S4096x200x64.size a
  hwx0_1 : ∀ i : grid0.Coords, EltTy.bits .f32 = 32 ∨ (Rect.block (s := S4096x200x64) S128x200x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .i32 = 32 ∨ (Rect.block (s := S4096x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1x64.size a ≤ S4096x1x64.size a
  hwx0_5 : ∀ i : grid0.Coords, EltTy.bits .f32 = 32 ∨ (Rect.block (s := S4096x1x64) S128x1x64.size (cc0_transform_5 i) (hinb0_5 i)).WholeWords (EltTy.packing .f32)

variable [Facts₀]

def dot_S128x1x200_S128x200x64_S128x1x64_2_1_1_2_0_0 : DotDims S128x1x200 S128x200x64 S128x1x64 where
  lhsContracting := [2]
  rhsContracting := [1]
  lhsNonContracting := [1]
  rhsNonContracting := [2]
  lhsBatch := [0]
  rhsBatch := [0]
  wf := dot_S128x1x200_S128x200x64_S128x1x64_2_1_1_2_0_0_wf

abbrev win0_0 : Pipeline.Window sig grid0 :=
  Pipeline.Window.ofSpec (Memref.whole main_arg0) S128x1x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x200x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1x64 : Shape := ⟨3, ![4096, 1, 64]⟩
abbrev S4096x200x64 : Shape := ⟨3, ![4096, 200, 64]⟩
abbrev S4096x1 : Shape := ⟨2, ![4096, 1]⟩
abbrev S128x1 : Shape := ⟨2, ![128, 1]⟩
abbrev S1 : Shape := ⟨1, ![1]⟩
abbrev S_ : Shape := ⟨0, ![]⟩
abbrev S4096x200x128 : Shape := ⟨3, ![4096, 200, 128]⟩
abbrev S4096x200x1 : Shape := ⟨3, ![4096, 200, 1]⟩
abbrev S1x1x1 : Shape := ⟨3, ![1, 1, 1]⟩
abbrev S4096x1x200 : Shape := ⟨3, ![4096, 1, 200]⟩
abbrev S200 : Shape := ⟨1, ![200]⟩
abbrev S1x1x200 : Shape := ⟨3, ![1, 1, 200]⟩
abbrev S4096x1x1 : Shape := ⟨3, ![4096, 1, 1]⟩

abbrev nBuf : Space → Nat
  | .hbm => 37
  | .vmem => 0
  | .smem => 0
  | _ => 0

abbrev bufTy : (tb : Table) → Fin (tcTables nBuf tb) → BufTy
  | .hbm, ⟨0, _⟩ => ⟨S4096x1x64, .f32⟩
  | .hbm, ⟨1, _⟩ => ⟨S4096x200x64, .f32⟩
  | .hbm, ⟨2, _⟩ => ⟨S4096x1, .i32⟩
  | .hbm, ⟨3, _⟩ => ⟨S128x1, .f32⟩
  | .hbm, ⟨4, _⟩ => ⟨S1, .f32⟩
  | .hbm, ⟨5, _⟩ => ⟨S_, .f32⟩
  | .hbm, ⟨6, _⟩ => ⟨S4096x200x64, .f32⟩
  | .hbm, ⟨7, _⟩ => ⟨S4096x200x128, .f32⟩
  | .hbm, ⟨8, _⟩ => ⟨S4096x200x1, .f32⟩
  | .hbm, ⟨9, _⟩ => ⟨S1x1x1, .f32⟩
  | .hbm, ⟨10, _⟩ => ⟨S4096x200x1, .f32⟩
  | .hbm, ⟨11, _⟩ => ⟨S4096x200x1, .f32⟩
  | .hbm, ⟨12, _⟩ => ⟨S4096x200x1, .f32⟩
  | .hbm, ⟨13, _⟩ => ⟨S4096x1x200, .f32⟩
  | .hbm, ⟨14, _⟩ => ⟨S200, .i32⟩
  | .hbm, ⟨15, _⟩ => ⟨S1x1x200, .i32⟩
  | .hbm, ⟨16, _⟩ => ⟨S4096x1x1, .i32⟩
  | .hbm, ⟨17, _⟩ => ⟨S4096x1x200, .i32⟩
  | .hbm, ⟨18, _⟩ => ⟨S4096x1x200, .i32⟩
  | .hbm, ⟨19, _⟩ => ⟨S4096x1x200, .i1⟩
  | .hbm, ⟨20, _⟩ => ⟨S4096x1x200, .f32⟩
  | .hbm, ⟨21, _⟩ => ⟨S4096x1x200, .f32⟩
  | .hbm, ⟨22, _⟩ => ⟨S_, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1x1, .f32⟩
  | .hbm, ⟨28, _⟩ => ⟨S4096x1x200, .f32⟩
  | .hbm, ⟨29, _⟩ => ⟨S4096x1x200, .f32⟩
  | .hbm, ⟨30, _⟩ => ⟨S4096x1x200, .f32⟩
  | .hbm, ⟨31, _⟩ => ⟨S_, .f32⟩
  | .hbm, ⟨32, _⟩ => ⟨S4096x1, .f32⟩
  | .hbm, ⟨33, _⟩ => ⟨S4096x1x1, .f32⟩
  | .hbm, ⟨34, _⟩ => ⟨S4096x1x200, .f32⟩
  | .hbm, ⟨35, _⟩ => ⟨S4096x1x200, .f32⟩
  | .hbm, ⟨36, _⟩ => ⟨S4096x1x64, .f32⟩
  | _, _ => ⟨S4096x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S4096x1x64_S4096x200x64_0_1_2 : S4096x1x64.BroadcastsInDim S4096x200x64 (![0, 1, 2] : Fin 3 → Fin S4096x200x64.rank)
  concatenates_S4096x200x64_S4096x200x64_S4096x200x128_d2 : Shape.Concatenates [S4096x200x64, S4096x200x64] S4096x200x128 2
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  transposes_S4096x200x1_S4096x1x200_0_2_1 : S4096x200x1.Transposes [0, 2, 1] S4096x1x200
  bcast_S200_S1x1x200_2 : S200.BroadcastsInDim S1x1x200 (![2] : Fin 1 → Fin S1x1x200.rank)
  bcast_S4096x1_S4096x1x1_0_1 : S4096x1.BroadcastsInDim S4096x1x1 (![0, 1] : Fin 2 → Fin S4096x1x1.rank)
  bcast_S1x1x200_S4096x1x200_0_1_2 : S1x1x200.BroadcastsInDim S4096x1x200 (![0, 1, 2] : Fin 3 → Fin S4096x1x200.rank)
  bcast_S4096x1x1_S4096x1x200_0_1_2 : S4096x1x1.BroadcastsInDim S4096x1x200 (![0, 1, 2] : Fin 3 → Fin S4096x1x200.rank)
  bcast_S_S4096x1x200 : S_.BroadcastsInDim S4096x1x200 (![] : Fin 0 → Fin S4096x1x200.rank)
  reducesTo_S4096x1x200_S4096x1_d2 : S4096x1x200.ReducesTo [2] S4096x1
  h_S_ : 0 < S_.numel
  bcast_S_S4096x1 : S_.BroadcastsInDim S4096x1 (![] : Fin 0 → Fin S4096x1.rank)
  dot_S4096x200x128_S128x1_S4096x200x1_2_0_01_1_n_n_wf : DotDims.WF S4096x200x128 S128x1 S4096x200x1 [2] [0] [0, 1] [1] [] []
  dot_S4096x1x200_S4096x200x64_S4096x1x64_2_1_1_2_0_0_wf : DotDims.WF S4096x1x200 S4096x200x64 S4096x1x64 [2] [1] [1] [2] [0] [0]

variable [Facts₀]

def dot_S4096x200x128_S128x1_S4096x200x1_2_0_01_1_n_n : DotDims S4096x200x128 S128x1 S4096x200x1 where
  lhsContracting := [2]
  rhsContracting := [0]
  lhsNonContracting := [0, 1]
  rhsNonContracting := [1]
  lhsBatch := []
  rhsBatch := []
  wf := dot_S4096x200x128_S128x1_S4096x200x1_2_0_01_1_n_n_wf
def dot_S4096x1x200_S4096x200x64_S4096x1x64_2_1_1_2_0_0 : DotDims S4096x1x200 S4096x200x64 S4096x1x64 where
  lhsContracting := [2]
  rhsContracting := [1]
  lhsNonContracting := [1]
  rhsNonContracting := [2]
  lhsBatch := [0]
  rhsBatch := [0]
  wf := dot_S4096x1x200_S4096x200x64_S4096x1x64_2_1_1_2_0_0_wf

class Facts : Prop extends Facts₀ where

variable [Facts]
-- ==== Proof.Spec.lean ====
/-
  Attention pooling of one batch row over the extended reals, as both programs compute it.

  A row has a query q (64 entries), 200 keys k t (64 entries each), a length word, a weight vector W of
  128 entries and a bias. The logit of key t is the dot product of the concatenation [q, k t] with W plus
  the bias, written here as the q-half sum plus the k-half sum plus the bias; the score is its tanh where
  the position t is (signed) below the length, and the finite pad -2^32 elsewhere. The attention weights
  are the softmax of the scores taken from their maximum (exp (s t - max s) over the sum of those), and
  the pooled row is the weighted sum of the keys.

  Also here: the sum over 128 entries splits into the two halves' sums (no finiteness needed: addition of
  extended reals is a commutative monoid), and the maximum of -inf with a fold of max from -inf is the fold.
-/
import Idealize.ShloMosaic.PureOps.Ideal
import Idealize.ShloMosaic.Lib.ValueIdx
import Mathlib.Data.Finset.Fold

noncomputable section

open scoped BigOperators

namespace Cert.AttnPool

open Idealize.ShloMosaic Idealize.ShloMosaic.ValueIdx

/-- Entry c of the first half of a 128-vector. -/
abbrev lo (c : Fin 64) : Fin 128 := ⟨c.val, by omega⟩
/-- Entry c of the second half of a 128-vector. -/
abbrev hi (c : Fin 64) : Fin 128 := ⟨64 + c.val, by omega⟩

/-- The logit of key t: [q, k t] · W + bias, the dot product split at the seam. -/
def logit (q : Fin 64 → EReal) (k : Fin 200 → Fin 64 → EReal) (W : Fin 128 → EReal) (bias : EReal) (t : Fin 200) : EReal :=
  ((∑ c : Fin 64, q c * W (lo c)) + ∑ c : Fin 64, k t c * W (hi c)) + bias

/-- The masked score of key t: tanh of the logit where t < len (signed), the pad elsewhere. -/
def score (q : Fin 64 → EReal) (k : Fin 200 → Fin 64 → EReal) (len : BitVec 32) (W : Fin 128 → EReal) (bias : EReal)
    (t : Fin 200) : EReal :=
  Scalar.select (IntOp.cmpi .slt (BitVec.ofNat 32 t.val) len) (Ideal.tanh (logit q k W bias t))
    (Ideal.ofBits .f32 0xCF800000#32)

/-- The maximum of 200 values, folded from -inf. -/
def top (s : Fin 200 → EReal) : EReal :=
  (Finset.univ : Finset (Fin 200)).fold max (Ideal.ofBits .f32 0xFF800000#32) s

/-- exp of a value less the maximum. -/
def ex (s : Fin 200 → EReal) (t : Fin 200) : EReal := Ideal.exp (s t - top s)

/-- The softmax weight of position t. -/
def weight (s : Fin 200 → EReal) (t : Fin 200) : EReal := Ideal.div (ex s t) (∑ u : Fin 200, ex s u)

/-- Entry c of the pooled row: the softmax-weighted sum of the keys' entries c. -/
def pooled (q : Fin 64 → EReal) (k : Fin 200 → Fin 64 → EReal) (len : BitVec 32) (W : Fin 128 → EReal) (bias : EReal)
    (c : Fin 64) : EReal :=
  ∑ t : Fin 200, weight (score q k len W bias) t * k t c

/-- Entry (b, c) of the pooled array from the five whole argument arrays: row b's query, keys and length,
    the weight column and the bias entry, pooled. -/
def poolRow (X0 : (⟨3, ![4096, 1, 64]⟩ : Shape).Idx → EReal) (X1 : (⟨3, ![4096, 200, 64]⟩ : Shape).Idx → EReal)
    (X2 : (⟨2, ![4096, 1]⟩ : Shape).Idx → BitVec 32) (X3 : (⟨2, ![128, 1]⟩ : Shape).Idx → EReal)
    (X4 : (⟨1, ![1]⟩ : Shape).Idx → EReal) (b : Fin 4096) (c : Fin 64) : EReal :=
  pooled (fun c => X0 (ix3 b (0 : Fin 1) c)) (fun t c => X1 (ix3 b t c)) (X2 (ix2 b (0 : Fin 1)))
    (fun j => X3 (ix2 j (0 : Fin 1))) (X4 (ix1 (0 : Fin 1))) c

/-- The pooled array [4096, 1, 64] as one function of the five argument arrays, index by index. -/
def poolAll (X0 : (⟨3, ![4096, 1, 64]⟩ : Shape).Idx → EReal) (X1 : (⟨3, ![4096, 200, 64]⟩ : Shape).Idx → EReal)
    (X2 : (⟨2, ![4096, 1]⟩ : Shape).Idx → BitVec 32) (X3 : (⟨2, ![128, 1]⟩ : Shape).Idx → EReal)
    (X4 : (⟨1, ![1]⟩ : Shape).Idx → EReal) : (⟨3, ![4096, 1, 64]⟩ : Shape).Idx → EReal :=
  fun i => poolRow X0 X1 X2 X3 X4 ⟨(i 0).val, (i 0).isLt⟩ ⟨(i 2).val, (i 2).isLt⟩

/-- At an index given by its coordinates it is that row's pooled entry. -/
theorem poolAll_ix3 (X0 : (⟨3, ![4096, 1, 64]⟩ : Shape).Idx → EReal) (X1 : (⟨3, ![4096, 200, 64]⟩ : Shape).Idx → EReal)
    (X2 : (⟨2, ![4096, 1]⟩ : Shape).Idx → BitVec 32) (X3 : (⟨2, ![128, 1]⟩ : Shape).Idx → EReal)
    (X4 : (⟨1, ![1]⟩ : Shape).Idx → EReal) (b : Fin 4096) (u : Fin 1) (c : Fin 64) :
    poolAll X0 X1 X2 X3 X4 (ix3 b u c) = poolRow X0 X1 X2 X3 X4 b c := rfl

/-- A sum over 128 entries is the first half's sum plus the second half's. -/
theorem sum_halves (f : Fin 128 → EReal) : ∑ j : Fin 128, f j = (∑ c : Fin 64, f (lo c)) + ∑ c : Fin 64, f (hi c) := by
  have h := Fin.sum_univ_add (a := 64) (b := 64) (f : Fin (64 + 64) → EReal)
  refine h.trans ?_
  congr 1

/-- The maximum of the fold's starting value with the fold is the fold. -/
theorem max_top (s : Fin 200 → EReal) : max (Ideal.ofBits .f32 0xFF800000#32) (top s) = top s :=
  max_eq_right ((Finset.le_fold_max _).mpr (Or.inl le_rfl))

end Cert.AttnPool

end
-- ==== Proof.LibColumn.lean ====
/-
  Two layout operations of a keepdims row reduction, read at an index: a vector of length a viewed as
  an a-by-1 column reads its own entry, and an a-by-1 column broadcast along the second axis to
  a-by-b reads the column's entry of the same row.
-/
import Idealize.ShloMosaic.Lib.ValueIdx
import Idealize.ShloMosaic.Lib.Pipeline.Value

namespace Cert.Splat.Column

open Idealize.ShloMosaic Idealize.ShloMosaic.ValueIdx

variable {α : Type}

/-- A length-a vector cast to an a-by-1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a-by-1 column broadcast to a-by-b reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Splat.Column
-- ==== Proof.KernelRow.lean ====
/-
  The kernel's body on one block of 128 rows, row by row. The body's value is cut into named stages — the two
  halves of the weight column broadcast over the block, the two half dot products, the masked score, the row
  maximum and the row sum broadcast back along the positions, the softmax weights, the batched product with the
  keys — and each stage read at an index given by its coordinates is the corresponding piece of that row's
  attention pooling.
-/
import proofs.«101349_j30296699306118_2_alg».proof.Proof.Gen.KernelIdeal.Skeleton
import proofs.«101349_j30296699306118_2_alg».proof.Proof.Spec
import proofs.«101349_j30296699306118_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.AttnPool.Ker

open Cert.KernelIdeal Cert.KernelIdeal.Gen Idealize.ShloMosaic Idealize.ShloMosaic.ValueIdx
open Cert.AttnPool

/-! ## The weight column's halves, broadcast over the block -/

/-- The first 64 weights, as a [128, 1, 64] block constant along the rows. -/
def wqB (v2 : Vec Ideal S128x1 .f32) : FVec Ideal S128x1x64 .f32 :=
  broadcastTo S128x1x64 (shapeCast S1x1x64 (shapeCast S64 (extractStridedSlice S64x1 ![0, 0] v2 slices_S128x1_o0_0_S64x1)
    shapeCasts_S64x1_S64) shapeCasts_S64_S1x1x64) broadcasts_S1x1x64_S128x1x64

/-- The last 64 weights, as a [128, 200, 64] block constant along rows and positions. -/
def wkB (v2 : Vec Ideal S128x1 .f32) : FVec Ideal S128x200x64 .f32 :=
  broadcastTo S128x200x64 (shapeCast S1x1x64 (shapeCast S64 (extractStridedSlice S64x1 ![64, 0] v2 slices_S128x1_o64_0_S64x1)
    shapeCasts_S64x1_S64) shapeCasts_S64_S1x1x64) broadcasts_S1x1x64_S128x200x64

/-- A 64-vector viewed [1, 1, 64] reads its own entry. -/
theorem cast_64_1x1x64 (y : S64.Idx → EReal) (c : Fin 64) :
    shapeCast S1x1x64 y shapeCasts_S64_S1x1x64 (ix3 (0 : Fin 1) (0 : Fin 1) c) = y (ix1 c) :=
  shapeCast_apply y shapeCasts_S64_S1x1x64 _ _ (by
    rw [Shape.rowMajor_val_one, Shape.rowMajor_val_three]
    show c.val = (0 * 1 + 0) * 64 + c.val
    omega)

/-- A [64, 1] column viewed as a 64-vector reads the column's entry. -/
theorem cast_64x1_64 (y : S64x1.Idx → EReal) (c : Fin 64) :
    shapeCast S64 y shapeCasts_S64x1_S64 (ix1 c) = y (ix2 c (0 : Fin 1)) :=
  shapeCast_apply y shapeCasts_S64x1_S64 _ _ (by
    rw [Shape.rowMajor_val_two, Shape.rowMajor_val_one]
    show c.val * 1 + 0 = c.val
    omega)

theorem wqB_at (v2 : Vec Ideal S128x1 .f32) (p : Fin 128) (c : Fin 64) :
    wqB v2 (ix3 p (0 : Fin 1) c) = v2 (ix2 (lo c) (0 : Fin 1)) := by
  unfold wqB
  refine (broadcastTo_apply _ broadcasts_S1x1x64_S128x1x64 (ix3 p (0 : Fin 1) c) (ix3 (0 : Fin 1) (0 : Fin 1) c) fun a => ?_).trans ?_
  · match a with
    | ⟨0, _⟩ => show 0 = if (1 : Nat) = 1 then 0 else p.val; rw [if_pos rfl]
    | ⟨1, _⟩ => show 0 = if (1 : Nat) = 1 then 0 else 0; rw [if_pos rfl]
    | ⟨2, _⟩ => show c.val = if (64 : Nat) = 1 then 0 else c.val; rw [if_neg (by decide)]
  · rw [cast_64_1x1x64, cast_64x1_64]
    exact slice2_axis0_apply 0 v2 slices_S128x1_o0_0_S64x1 c (0 : Fin 1) (lo c) (by show c.val = 0 + c.val; omega)

theorem wkB_at (v2 : Vec Ideal S128x1 .f32) (p : Fin 128) (t : Fin 200) (c : Fin 64) :
    wkB v2 (ix3 p t c) = v2 (ix2 (hi c) (0 : Fin 1)) := by
  unfold wkB
  refine (broadcastTo_apply _ broadcasts_S1x1x64_S128x200x64 (ix3 p t c) (ix3 (0 : Fin 1) (0 : Fin 1) c) fun a => ?_).trans ?_
  · match a with
    | ⟨0, _⟩ => show 0 = if (1 : Nat) = 1 then 0 else p.val; rw [if_pos rfl]
    | ⟨1, _⟩ => show 0 = if (1 : Nat) = 1 then 0 else t.val; rw [if_pos rfl]
    | ⟨2, _⟩ => show c.val = if (64 : Nat) = 1 then 0 else c.val; rw [if_neg (by decide)]
  · rw [cast_64_1x1x64, cast_64x1_64]
    exact slice2_axis0_apply 64 v2 slices_S128x1_o64_0_S64x1 c (0 : Fin 1) (hi c) rfl

/-! ## The two half dot products -/

/-- The query's half: each row's 64 products summed. -/
def qs (v0 : Vec Ideal S128x1x64 .f32) (v2 : Vec Ideal S128x1 .f32) : FVec Ideal S128x1 .f32 :=
  multiReduction .add [2] S128x1 (mulf v0 (wqB v2)) 0x00000000#32 reduces_S128x1x64_S128x1 (.inl rfl) rfl

/-- The keys' half: each (row, position)'s 64 products summed. -/
def ks (v1 : Vec Ideal S128x200x64 .f32) (v2 : Vec Ideal S128x1 .f32) : FVec Ideal S128x200 .f32 :=
  multiReduction .add [2] S128x200 (mulf v1 (wkB v2)) 0x00000000#32 reduces_S128x200x64_S128x200 (.inl rfl) rfl

theorem qs_at (v0 : Vec Ideal S128x1x64 .f32) (v2 : Vec Ideal S128x1 .f32) (p : Fin 128) :
    qs v0 v2 (ix2 p (0 : Fin 1)) = ∑ c : Fin 64, v0 (ix3 p (0 : Fin 1) c) * v2 (ix2 (lo c) (0 : Fin 1)) := by
  unfold qs
  have key : ∀ c : Fin 64, mulf v0 (wqB v2) (reduces_S128x1x64_S128x1.lift (ix2 p (0 : Fin 1)) c)
      = v0 (ix3 p (0 : Fin 1) c) * v2 (ix2 (lo c) (0 : Fin 1)) := fun c => by
    have hl : reduces_S128x1x64_S128x1.lift (ix2 p (0 : Fin 1)) c = ix3 p (0 : Fin 1) c := funext fun a => Fin.ext (by
      match a with
      | ⟨0, _⟩ => rfl
      | ⟨1, _⟩ => rfl
      | ⟨2, _⟩ => rfl)
    rw [hl, mulf_apply, wqB_at]
  exact (Ideal.multiReduction_add_single _ _ reduces_S128x1x64_S128x1 _ _ (ix2 p (0 : Fin 1))).trans
    (Finset.sum_congr rfl fun c _ => key c)

theorem ks_at (v1 : Vec Ideal S128x200x64 .f32) (v2 : Vec Ideal S128x1 .f32) (p : Fin 128) (t : Fin 200) :
    ks v1 v2 (ix2 p t) = ∑ c : Fin 64, v1 (ix3 p t c) * v2 (ix2 (hi c) (0 : Fin 1)) := by
  unfold ks
  have key : ∀ c : Fin 64, mulf v1 (wkB v2) (reduces_S128x200x64_S128x200.lift (ix2 p t) c)
      = v1 (ix3 p t c) * v2 (ix2 (hi c) (0 : Fin 1)) := fun c => by
    have hl : reduces_S128x200x64_S128x200.lift (ix2 p t) c = ix3 p t c := funext fun a => Fin.ext (by
      match a with
      | ⟨0, _⟩ => rfl
      | ⟨1, _⟩ => rfl
      | ⟨2, _⟩ => rfl)
    rw [hl, mulf_apply, wkB_at]
  exact (Ideal.multiReduction_add_single _ _ reduces_S128x200x64_S128x200 _ _ (ix2 p t)).trans
    (Finset.sum_congr rfl fun c _ => key c)

/-! ## The masked score -/

/-- tanh of (query half + keys half + bias) where the position is below the row's length, the pad elsewhere. -/
def sc (v0 : Vec Ideal S128x1x64 .f32) (v1 : Vec Ideal S128x200x64 .f32) (v2 : Vec Ideal S128x1 .f32) (v3 : Vec Ideal S1x1 .f32)
    (v22 : Vec Ideal S128x1 .i32) : FVec Ideal S128x200 .f32 :=
  select (cmpi .slt (iota .tc S128x200 32 [1] iota_S128x200_d1_w32) (broadcastTo S128x200 v22 broadcasts_S128x1_S128x200))
    (tanh (addf (addf (broadcastTo S128x200 (qs v0 v2) broadcasts_S128x1_S128x200) (ks v1 v2))
      (broadcastTo S128x200 (shapeCast S1x1 v3 shapeCasts_S1x1_S1x1) broadcasts_S1x1_S128x200)))
    (broadcast S128x200 (Scalar.ofBits .f32 0xCF800000#32))

theorem sc_at (v0 : Vec Ideal S128x1x64 .f32) (v1 : Vec Ideal S128x200x64 .f32) (v2 : Vec Ideal S128x1 .f32) (v3 : Vec Ideal S1x1 .f32)
    (v22 : Vec Ideal S128x1 .i32) (p : Fin 128) (t : Fin 200) :
    sc v0 v1 v2 v3 v22 (ix2 p t)
      = score (fun c => v0 (ix3 p (0 : Fin 1) c)) (fun t c => v1 (ix3 p t c)) (v22 (ix2 p (0 : Fin 1)))
          (fun j => v2 (ix2 j (0 : Fin 1))) (v3 (ix2 (0 : Fin 1) (0 : Fin 1))) t := by
  have hI : iota .tc S128x200 32 [1] iota_S128x200_d1_w32 (ix2 p t) = BitVec.ofNat 32 t.val :=
    iota_single_apply .tc S128x200 32 1 iota_S128x200_d1_w32 (ix2 p t)
  have hL : broadcastTo S128x200 v22 broadcasts_S128x1_S128x200 (ix2 p t) = v22 (ix2 p (0 : Fin 1)) :=
    Cert.Splat.Column.broadcastTo_a1_ab_apply v22 broadcasts_S128x1_S128x200 p t
  have hQ : broadcastTo S128x200 (qs v0 v2) broadcasts_S128x1_S128x200 (ix2 p t) = qs v0 v2 (ix2 p (0 : Fin 1)) :=
    Cert.Splat.Column.broadcastTo_a1_ab_apply (qs v0 v2) broadcasts_S128x1_S128x200 p t
  have hB : broadcastTo S128x200 (shapeCast S1x1 v3 shapeCasts_S1x1_S1x1) broadcasts_S1x1_S128x200 (ix2 p t)
      = v3 (ix2 (0 : Fin 1) (0 : Fin 1)) := by
    rw [shapeCast_self]
    exact broadcastTo_apply v3 broadcasts_S1x1_S128x200 (ix2 p t) (ix2 (0 : Fin 1) (0 : Fin 1)) fun a => by
      match a with
      | ⟨0, _⟩ => show 0 = if (1 : Nat) = 1 then 0 else p.val; rw [if_pos rfl]
      | ⟨1, _⟩ => show 0 = if (1 : Nat) = 1 then 0 else t.val; rw [if_pos rfl]
  show Scalar.select (IntOp.cmpi .slt (iota .tc S128x200 32 [1] iota_S128x200_d1_w32 (ix2 p t))
      (broadcastTo S128x200 v22 broadcasts_S128x1_S128x200 (ix2 p t)))
    (Ideal.tanh ((broadcastTo S128x200 (qs v0 v2) broadcasts_S128x1_S128x200 (ix2 p t) + ks v1 v2 (ix2 p t))
      + broadcastTo S128x200 (shapeCast S1x1 v3 shapeCasts_S1x1_S1x1) broadcasts_S1x1_S128x200 (ix2 p t)))
    (Ideal.ofBits .f32 0xCF800000#32) = _
  rw [hI, hL, hQ, hB, qs_at, ks_at]
  rfl

/-! ## Row maximum and row sum, broadcast back along the positions -/

/-- Each row's maximum (from -inf) at every position of the row. -/
def mxB (s : FVec Ideal S128x200 .f32) : FVec Ideal S128x200 .f32 :=
  broadcastTo S128x200 (shapeCast S128x1 (multiReduction .maximumf [1] S128 s 0xFF800000#32 reduces_S128x200_S128 (.inl rfl) rfl)
    shapeCasts_S128_S128x1) broadcasts_S128x1_S128x200

/-- Each row's sum at every position of the row. -/
def smB (e : FVec Ideal S128x200 .f32) : FVec Ideal S128x200 .f32 :=
  broadcastTo S128x200 (shapeCast S128x1 (multiReduction .add [1] S128 e 0x00000000#32 reduces_S128x200_S128 (.inl rfl) rfl)
    shapeCasts_S128_S128x1) broadcasts_S128x1_S128x200

/-- Position u put back into row p is (p, u). -/
theorem lift_row (p : Fin 128) (u : Fin 200) : reduces_S128x200_S128.lift (ix1 p) u = ix2 p u := funext fun a => Fin.ext (by
  match a with
  | ⟨0, _⟩ => rfl
  | ⟨1, _⟩ => rfl)

theorem mxB_at (s : FVec Ideal S128x200 .f32) (p : Fin 128) (t : Fin 200) :
    mxB s (ix2 p t) = top (fun u => s (ix2 p u)) := by
  unfold mxB
  refine (Cert.Splat.Column.broadcastTo_a1_ab_apply _ broadcasts_S128x1_S128x200 p t).trans ?_
  refine (Cert.Splat.Column.shapeCast_a_a1_apply _ shapeCasts_S128_S128x1 p (0 : Fin 1)).trans ?_
  refine (Ideal.multiReduction_maximumf_single s _ reduces_S128x200_S128 _ _ (ix1 p)).trans ?_
  have hf : (s ∘ reduces_S128x200_S128.lift (ix1 p)) = fun u : Fin 200 => s (ix2 p u) :=
    funext fun u => congrArg s (lift_row p u)
  rw [hf]
  rfl

theorem smB_at (e : FVec Ideal S128x200 .f32) (p : Fin 128) (t : Fin 200) :
    smB e (ix2 p t) = ∑ u : Fin 200, e (ix2 p u) := by
  unfold smB
  refine (Cert.Splat.Column.broadcastTo_a1_ab_apply _ broadcasts_S128x1_S128x200 p t).trans ?_
  refine (Cert.Splat.Column.shapeCast_a_a1_apply _ shapeCasts_S128_S128x1 p (0 : Fin 1)).trans ?_
  exact (Ideal.multiReduction_add_single e _ reduces_S128x200_S128 _ _ (ix1 p)).trans
    (Finset.sum_congr rfl fun u _ => congrArg e (lift_row p u))

/-! ## The softmax weights -/

/-- exp of the score less its row's maximum. -/
def exV (s : FVec Ideal S128x200 .f32) : FVec Ideal S128x200 .f32 := exp (subf s (mxB s))

/-- That over its row's sum. -/
def att (s : FVec Ideal S128x200 .f32) : FVec Ideal S128x200 .f32 := divf (exV s) (smB (exV s))

theorem exV_at (s : FVec Ideal S128x200 .f32) (p : Fin 128) (t : Fin 200) :
    exV s (ix2 p t) = ex (fun u => s (ix2 p u)) t := by
  show Ideal.exp (s (ix2 p t) - mxB s (ix2 p t)) = _
  rw [mxB_at]
  rfl

theorem att_at (s : FVec Ideal S128x200 .f32) (p : Fin 128) (t : Fin 200) :
    att s (ix2 p t) = weight (fun u => s (ix2 p u)) t := by
  show Ideal.div (exV s (ix2 p t)) (smB (exV s) (ix2 p t)) = _
  rw [smB_at]
  simp only [exV_at]
  rfl

/-! ## The batched product with the keys -/

/-- Row by row, the weights (viewed [128, 1, 200]) times the keys [128, 200, 64], summed over the positions,
    into a zero accumulator; the roundings to bf16 are the identity here. -/
def out (a : FVec Ideal S128x200 .f32) (v1 : Vec Ideal S128x200x64 .f32) : FVec Ideal S128x1x64 .f32 :=
  matmul dot_S128x1x200_S128x200x64_S128x1x64_2_1_1_2_0_0 none
    (truncf .bf16 (shapeCast S128x1x200 a shapeCasts_S128x200_S128x1x200) bitsLt_bf16_f32)
    (truncf .bf16 v1 bitsLt_bf16_f32) (constant S128x1x64 .f32 0x00000000#32)

/-- A [128, 200] matrix viewed [128, 1, 200] reads its own entry. -/
theorem cast_row (a : S128x200.Idx → EReal) (p : Fin 128) (t : Fin 200) :
    shapeCast S128x1x200 a shapeCasts_S128x200_S128x1x200 (ix3 p (0 : Fin 1) t) = a (ix2 p t) :=
  shapeCast_apply a shapeCasts_S128x200_S128x1x200 _ _ (by
    rw [Shape.rowMajor_val_two, Shape.rowMajor_val_three]
    show p.val * 200 + t.val = (p.val * 1 + 0) * 200 + t.val
    omega)

theorem lhs_0 (i : S128x1x64.Idx) (q : dot_S128x1x200_S128x200x64_S128x1x64_2_1_1_2_0_0.contr.Idx) :
    (dot_S128x1x200_S128x200x64_S128x1x64_2_1_1_2_0_0.lhsIdx i q 0).val = (i 0).val := by
  unfold DotDims.lhsIdx
  rw [dif_pos (show (0 : Fin S128x1x200.rank) ∈ dot_S128x1x200_S128x200x64_S128x1x64_2_1_1_2_0_0.lhsBatch by decide)]
  rfl
theorem lhs_1 (i : S128x1x64.Idx) (q : dot_S128x1x200_S128x200x64_S128x1x64_2_1_1_2_0_0.contr.Idx) :
    (dot_S128x1x200_S128x200x64_S128x1x64_2_1_1_2_0_0.lhsIdx i q 1).val = (i 1).val := by
  unfold DotDims.lhsIdx
  rw [dif_neg (show ¬(1 : Fin S128x1x200.rank) ∈ dot_S128x1x200_S128x200x64_S128x1x64_2_1_1_2_0_0.lhsBatch by decide),
    dif_pos (show (1 : Fin S128x1x200.rank) ∈ dot_S128x1x200_S128x200x64_S128x1x64_2_1_1_2_0_0.lhsNonContracting by decide)]
  rfl
theorem lhs_2 (i : S128x1x64.Idx) (q : dot_S128x1x200_S128x200x64_S128x1x64_2_1_1_2_0_0.contr.Idx) :
    (dot_S128x1x200_S128x200x64_S128x1x64_2_1_1_2_0_0.lhsIdx i q 2).val = (q ⟨0, by decide⟩).val :=
  dot_S128x1x200_S128x200x64_S128x1x64_2_1_1_2_0_0.lhsIdx_val_of_single rfl i q
theorem rhs_0 (i : S128x1x64.Idx) (q : dot_S128x1x200_S128x200x64_S128x1x64_2_1_1_2_0_0.contr.Idx) :
    (dot_S128x1x200_S128x200x64_S128x1x64_2_1_1_2_0_0.rhsIdx i q 0).val = (i 0).val := by
  unfold DotDims.rhsIdx
  rw [dif_pos (show (0 : Fin S128x200x64.rank) ∈ dot_S128x1x200_S128x200x64_S128x1x64_2_1_1_2_0_0.rhsBatch by decide)]
  rfl
theorem rhs_1 (i : S128x1x64.Idx) (q : dot_S128x1x200_S128x200x64_S128x1x64_2_1_1_2_0_0.contr.Idx) :
    (dot_S128x1x200_S128x200x64_S128x1x64_2_1_1_2_0_0.rhsIdx i q 1).val = (q ⟨0, by decide⟩).val :=
  dot_S128x1x200_S128x200x64_S128x1x64_2_1_1_2_0_0.rhsIdx_val_of_single rfl i q
theorem rhs_2 (i : S128x1x64.Idx) (q : dot_S128x1x200_S128x200x64_S128x1x64_2_1_1_2_0_0.contr.Idx) :
    (dot_S128x1x200_S128x200x64_S128x1x64_2_1_1_2_0_0.rhsIdx i q 2).val = (i 2).val := by
  unfold DotDims.rhsIdx
  rw [dif_neg (show ¬(2 : Fin S128x200x64.rank) ∈ dot_S128x1x200_S128x200x64_S128x1x64_2_1_1_2_0_0.rhsBatch by decide),
    dif_pos (show (2 : Fin S128x200x64.rank) ∈ dot_S128x1x200_S128x200x64_S128x1x64_2_1_1_2_0_0.rhsNonContracting by decide)]
  rfl

theorem out_at (a : FVec Ideal S128x200 .f32) (v1 : Vec Ideal S128x200x64 .f32) (p : Fin 128) (c : Fin 64) :
    out a v1 (ix3 p (0 : Fin 1) c) = ∑ t : Fin 200, a (ix2 p t) * v1 (ix3 p t c) := by
  unfold out
  simp only [matmul]
  rw [Ideal.matmul_constant_zero_apply,
    ← Equiv.sum_comp (contrEquiv1 dot_S128x1x200_S128x200x64_S128x1x64_2_1_1_2_0_0 200 rfl rfl).symm]
  refine Finset.sum_congr rfl fun t _ => ?_
  have hk := contrEquiv1_symm_val dot_S128x1x200_S128x200x64_S128x1x64_2_1_1_2_0_0 200 rfl rfl t
  have el : dot_S128x1x200_S128x200x64_S128x1x64_2_1_1_2_0_0.lhsIdx (ix3 p (0 : Fin 1) c)
      ((contrEquiv1 dot_S128x1x200_S128x200x64_S128x1x64_2_1_1_2_0_0 200 rfl rfl).symm t) = ix3 p (0 : Fin 1) t :=
    funext fun a => Fin.ext (by
      match a with
      | ⟨0, _⟩ => exact lhs_0 _ _
      | ⟨1, _⟩ => exact lhs_1 _ _
      | ⟨2, _⟩ => exact (lhs_2 _ _).trans hk)
  have er : dot_S128x1x200_S128x200x64_S128x1x64_2_1_1_2_0_0.rhsIdx (ix3 p (0 : Fin 1) c)
      ((contrEquiv1 dot_S128x1x200_S128x200x64_S128x1x64_2_1_1_2_0_0 200 rfl rfl).symm t) = ix3 p t c :=
    funext fun a => Fin.ext (by
      match a with
      | ⟨0, _⟩ => exact rhs_0 _ _
      | ⟨1, _⟩ => exact (rhs_1 _ _).trans hk
      | ⟨2, _⟩ => exact rhs_2 _ _)
  rw [el, er, truncf_apply, truncf_apply, cast_row]

/-! ## The body's value -/

/-- The body's one stored value is the product stage over the weights of the masked score. -/
theorem pay_eq (v0 : Vec Ideal S128x1x64 .f32) (v1 : Vec Ideal S128x200x64 .f32) (v2 : Vec Ideal S128x1 .f32) (v3 : Vec Ideal S1x1 .f32)
    (v22 : Vec Ideal S128x1 .i32) : k0_pay1 (F := Ideal) v0 v1 v2 v3 v22 = out (att (sc v0 v1 v2 v3 v22)) v1 := rfl

/-- At (p, 0, c) it is row p's pooled entry c. -/
theorem pay_at (v0 : Vec Ideal S128x1x64 .f32) (v1 : Vec Ideal S128x200x64 .f32) (v2 : Vec Ideal S128x1 .f32) (v3 : Vec Ideal S1x1 .f32)
    (v22 : Vec Ideal S128x1 .i32) (p : Fin 128) (c : Fin 64) :
    k0_pay1 (F := Ideal) v0 v1 v2 v3 v22 (ix3 p (0 : Fin 1) c)
      = pooled (fun c => v0 (ix3 p (0 : Fin 1) c)) (fun t c => v1 (ix3 p t c)) (v22 (ix2 p (0 : Fin 1)))
          (fun j => v2 (ix2 j (0 : Fin 1))) (v3 (ix2 (0 : Fin 1) (0 : Fin 1))) c := by
  rw [pay_eq, out_at]
  unfold pooled
  refine Finset.sum_congr rfl fun t _ => ?_
  rw [att_at]
  simp only [sc_at]

end Cert.AttnPool.Ker

end
-- ==== Proof.PoolArray.lean ====
/-
  From blocks to the array. The grid has 32 points; point t stages rows 128 t … 128 t + 127 of the queries, keys
  and lengths, the whole weight column and the bias (the one-entry bias viewed [1, 1] by the program before the
  region), and writes back rows 128 t … 128 t + 127 of the result. Each staged block read at a row is the argument
  array read at that row, so what point t writes back is block t of the pooled array of the arguments; the 32
  blocks cover the result array, row r lying in block r / 128.
-/
import proofs.«101349_j30296699306118_2_alg».proof.Proof.Gen.KernelIdeal.Value
import proofs.«101349_j30296699306118_2_alg».proof.Proof.KernelRow
import proofs.«101349_j30296699306118_2_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem
open Idealize.ShloMosaic.Pipeline (Dat)

namespace Cert.AttnPool.Arr

open Cert.KernelIdeal Cert.KernelIdeal.Gen Cert.KernelIdeal.Value Idealize.ShloMosaic.ValueIdx
open Cert.AttnPool

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the row windows sit at block t, the weight and bias windows at block 0. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = t.val ∧ win0_5.index t (1 : Fin 3) = 0 ∧ win0_5.index t (2 : Fin 3) = 0) :=
  (by decide +kernel : ∀ t : Fin grid0.N, _)

/-- Row p of block t is row 128 t + p of the array. -/
def row (t : Fin cfg0.N) (p : Fin 128) : Fin 4096 :=
  ⟨128 * t.val + p.val, by have h : t.val < 32 := lt_of_lt_of_eq t.isLt N_0; omega⟩

/-- The bias window's array: the one-entry bias viewed [1, 1] before the region. -/
theorem V_bias (c : Dev nD) :
    (V m c main_v0 : S1x1.Idx → EReal) = shapeCast S1x1 (m ((c : Thread nD τ).loc main_arg4)) shapeCasts_S1_S1x1 := by
  dsimp only [V, hostOps0]
  after_results
  rfl

/-! ## Each staged block read at a row -/

theorem q_blk (c : Dev nD) (t : Fin cfg0.N) (p : Fin 128) (e : Fin 64) :
    (iblk m c 0 t : Vec Ideal S128x1x64 .f32) (ix3 p (0 : Fin 1) e)
      = (m ((c : Thread nD τ).loc main_arg0) : S4096x1x64.Idx → EReal) (ix3 (row t p) (0 : Fin 1) e) := by
  obtain ⟨⟨a0, a1, a2⟩, -⟩ := idx_facts t
  show V m c main_arg0 (((cfg0.win 0).blk t).view.emb (ix3 p (0 : Fin 1) e)) = _
  rw [V_main_arg0]
  refine congrArg _ (funext fun a => Fin.ext ?_)
  match a with
  | ⟨0, _⟩ => show win0_0.index t (0 : Fin 3) * 128 + 1 * p.val = 128 * t.val + p.val; omega
  | ⟨1, _⟩ => show win0_0.index t (1 : Fin 3) * 1 + 1 * 0 = 0; omega
  | ⟨2, _⟩ => show win0_0.index t (2 : Fin 3) * 64 + 1 * e.val = e.val; omega

theorem k_blk (c : Dev nD) (t : Fin cfg0.N) (p : Fin 128) (u : Fin 200) (e : Fin 64) :
    (iblk m c 1 t : Vec Ideal S128x200x64 .f32) (ix3 p u e)
      = (m ((c : Thread nD τ).loc main_arg1) : S4096x200x64.Idx → EReal) (ix3 (row t p) u e) := by
  obtain ⟨-, ⟨a0, a1, a2⟩, -⟩ := idx_facts t
  show V m c main_arg1 (((cfg0.win 1).blk t).view.emb (ix3 p u e)) = _
  rw [V_main_arg1]
  refine congrArg _ (funext fun a => Fin.ext ?_)
  match a with
  | ⟨0, _⟩ => show win0_1.index t (0 : Fin 3) * 128 + 1 * p.val = 128 * t.val + p.val; omega
  | ⟨1, _⟩ => show win0_1.index t (1 : Fin 3) * 200 + 1 * u.val = u.val; omega
  | ⟨2, _⟩ => show win0_1.index t (2 : Fin 3) * 64 + 1 * e.val = e.val; omega

theorem len_blk (c : Dev nD) (t : Fin cfg0.N) (p : Fin 128) :
    (iblk m c 2 t : Vec Ideal S128x1 .i32) (ix2 p (0 : Fin 1))
      = (m ((c : Thread nD τ).loc main_arg2) : S4096x1.Idx → BitVec 32) (ix2 (row t p) (0 : Fin 1)) := by
  obtain ⟨-, -, ⟨a0, a1⟩, -⟩ := idx_facts t
  show V m c main_arg2 (((cfg0.win 2).blk t).view.emb (ix2 p (0 : Fin 1))) = _
  rw [V_main_arg2]
  refine congrArg _ (funext fun a => Fin.ext ?_)
  match a with
  | ⟨0, _⟩ => show win0_2.index t (0 : Fin 2) * 128 + 1 * p.val = 128 * t.val + p.val; omega
  | ⟨1, _⟩ => show win0_2.index t (1 : Fin 2) * 1 + 1 * 0 = 0; omega

theorem w_blk (c : Dev nD) (t : Fin cfg0.N) (j : Fin 128) :
    (iblk m c 3 t : Vec Ideal S128x1 .f32) (ix2 j (0 : Fin 1))
      = (m ((c : Thread nD τ).loc main_arg3) : S128x1.Idx → EReal) (ix2 j (0 : Fin 1)) := by
  obtain ⟨-, -, -, ⟨a0, a1⟩, -⟩ := idx_facts t
  show V m c main_arg3 (((cfg0.win 3).blk t).view.emb (ix2 j (0 : Fin 1))) = _
  rw [V_main_arg3]
  refine congrArg _ (funext fun a => Fin.ext ?_)
  match a with
  | ⟨0, _⟩ => show win0_3.index t (0 : Fin 2) * 128 + 1 * j.val = j.val; omega
  | ⟨1, _⟩ => show win0_3.index t (1 : Fin 2) * 1 + 1 * 0 = 0; omega

theorem bias_blk (c : Dev nD) (t : Fin cfg0.N) :
    (iblk m c 4 t : Vec Ideal S1x1 .f32) (ix2 (0 : Fin 1) (0 : Fin 1))
      = (m ((c : Thread nD τ).loc main_arg4) : S1.Idx → EReal) (ix1 (0 : Fin 1)) := by
  obtain ⟨-, -, -, -, ⟨a0, a1⟩, -⟩ := idx_facts t
  show (V m c main_v0 : S1x1.Idx → EReal) (((cfg0.win 4).blk t).view.emb (ix2 (0 : Fin 1) (0 : Fin 1))) = _
  rw [V_bias]
  refine shapeCast_apply _ shapeCasts_S1_S1x1 _ _ ?_
  rw [Shape.rowMajor_val_one, Shape.rowMajor_val_two]
  show 0 = (win0_4.index t (0 : Fin 2) * 1 + 1 * 0) * 1 + (win0_4.index t (1 : Fin 2) * 1 + 1 * 0)
  omega

/-! ## What a point writes back, the cover, the array -/

/-- The pooled array of the launch contents of the five arguments. -/
abbrev result (c : Dev nD) : S4096x1x64.Idx → EReal :=
  poolAll (m ((c : Thread nD τ).loc main_arg0)) (m ((c : Thread nD τ).loc main_arg1)) (m ((c : Thread nD τ).loc main_arg2))
    (m ((c : Thread nD τ).loc main_arg3)) (m ((c : Thread nD τ).loc main_arg4))

/-- The body's value on blocks that are rows of the arrays, at row p, is the pooled entry of array row b. -/
theorem block_row (X0 : S4096x1x64.Idx → EReal) (X1 : S4096x200x64.Idx → EReal) (X2 : S4096x1.Idx → BitVec 32)
    (X3 : S128x1.Idx → EReal) (X4 : S1.Idx → EReal)
    (x0 : Vec Ideal S128x1x64 .f32) (x1 : Vec Ideal S128x200x64 .f32) (x2 : Vec Ideal S128x1 .i32) (x3 : Vec Ideal S128x1 .f32)
    (x4 : Vec Ideal S1x1 .f32) (p : Fin 128) (b : Fin 4096)
    (h0 : ∀ e : Fin 64, x0 (ix3 p (0 : Fin 1) e) = X0 (ix3 b (0 : Fin 1) e))
    (h1 : ∀ (u : Fin 200) (e : Fin 64), x1 (ix3 p u e) = X1 (ix3 b u e))
    (h2 : x2 (ix2 p (0 : Fin 1)) = X2 (ix2 b (0 : Fin 1)))
    (h3 : ∀ j : Fin 128, x3 (ix2 j (0 : Fin 1)) = X3 (ix2 j (0 : Fin 1)))
    (h4 : x4 (ix2 (0 : Fin 1) (0 : Fin 1)) = X4 (ix1 (0 : Fin 1))) (e : Fin 64) :
    k0_pay1 (F := Ideal) x0 x1 x3 x4 x2 (ix3 p (0 : Fin 1) e) = poolRow X0 X1 X2 X3 X4 b e := by
  rw [Ker.pay_at]
  unfold poolRow
  simp only [h0, h1, h2, h3, h4]

/-- What point t writes back is block t of the pooled array. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz3]
  simp only [View.ld_unit_zero (S := S128x1x64) hz3, View.ld_unit_zero (S := S128x200x64) hz3,
    View.ld_unit_zero (S := S128x1) hz2, View.ld_unit_zero (S := S1x1) hz2]
  obtain ⟨-, -, -, -, -, ⟨a0, a1, a2⟩⟩ := idx_facts t
  funext j
  obtain ⟨p, u, e, rfl⟩ : ∃ (p : Fin 128) (u : Fin 1) (e : Fin 64), j = ix3 p u e := ⟨j 0, j 1, j 2, eq_ix3 j⟩
  obtain rfl : u = 0 := Subsingleton.elim _ _
  show k0_pay1 (F := Ideal) (iblk m c 0 t) (iblk m c 1 t) (iblk m c 3 t) (iblk m c 4 t) (iblk m c 2 t) (ix3 p (0 : Fin 1) e)
    = result m c (((cfg0.win 5).blk t).view.emb (ix3 p (0 : Fin 1) e))
  have hi : ((cfg0.win 5).blk t).view.emb (ix3 p (0 : Fin 1) e) = ix3 (row t p) (0 : Fin 1) e := funext fun a => Fin.ext (by
    match a with
    | ⟨0, _⟩ => show win0_5.index t (0 : Fin 3) * 128 + 1 * p.val = 128 * t.val + p.val; omega
    | ⟨1, _⟩ => show win0_5.index t (1 : Fin 3) * 1 + 1 * 0 = 0; omega
    | ⟨2, _⟩ => show win0_5.index t (2 : Fin 3) * 64 + 1 * e.val = e.val; omega)
  rw [hi]
  exact block_row _ _ _ _ _ (iblk m c 0 t) (iblk m c 1 t) (iblk m c 2 t) (iblk m c 3 t) (iblk m c 4 t) p (row t p)
    (q_blk m c t p) (k_blk m c t p) (len_blk m c t p) (w_blk m c t) (bias_blk m c t) e

/-- An index of the result array is in point t's block iff each coordinate is in the block's range on its axis. -/
theorem mem_blk (t : Fin cfg0.N) (i : S4096x1x64.Idx) :
    i ∈ ((cfg0.win 5).blk t).view.set ↔ ∀ a : Fin 3, win0_5.index t a * S128x1x64.size a ≤ (i a).val
      ∧ (i a).val < win0_5.index t a * S128x1x64.size a + S128x1x64.size a := by
  show i ∈ ((View.whole main_v1).slice (win0_5.rect t)).set ↔ _
  rw [View.set_slice_whole, Rect.mem_set_unit]
  exact Iff.rfl

/-- Every index of the result array lies in the block of the point its row's block number names. -/
theorem cover (i : S4096x1x64.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hi2 : (i 2).val < 64 := (i 2).isLt
  have hN : cfg0.N = 32 := N_0
  let t : Fin cfg0.N := ⟨(i 0).val / 128, by rw [hN]; omega⟩
  have ht : t.val = (i 0).val / 128 := rfl
  obtain ⟨-, -, -, -, -, ⟨a0, a1, a2⟩⟩ := idx_facts t
  refine ⟨t, flush0_5 t, ?_⟩
  rw [mem_blk]
  intro a
  match a with
  | ⟨0, _⟩ =>
    show win0_5.index t (0 : Fin 3) * 128 ≤ (i 0).val ∧ (i 0).val < win0_5.index t (0 : Fin 3) * 128 + 128
    omega
  | ⟨1, _⟩ =>
    show win0_5.index t (1 : Fin 3) * 1 ≤ (i 1).val ∧ (i 1).val < win0_5.index t (1 : Fin 3) * 1 + 1
    omega
  | ⟨2, _⟩ =>
    show win0_5.index t (2 : Fin 3) * 64 ≤ (i 2).val ∧ (i 2).val < win0_5.index t (2 : Fin 3) * 64 + 64
    omega

/-- So the result array ends holding the pooled array of the arguments. -/
theorem final (c : Dev nD) : (dats m 0 c).arrAt 5 cfg0.N = result m c :=
  (dats m 0 c).arrAt_eq_of_cover 5 (result m c) (fun t _ => flushed_eq m c t) cover

/-- The kernel's run, read: the result array at the pooled array of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.AttnPool.Arr

end
-- ==== Proof.RefRow.lean ====
/-
  The reference, row by row. Each stage of the host program read at an index given by its coordinates is the
  corresponding piece of one row's attention pooling: the contraction of [q, k t] with the weight column is the
  two half sums (the concatenation read in either piece, the 128-term sum split at the seam), the masked
  transposed tanh is the score, the maximum reduce from -inf followed by a maximum with -inf is the fold of max,
  exp of the difference, the sum from zero, the quotient, and the last contraction over the 200 positions.
-/
import proofs.«101349_j30296699306118_2_alg».proof.Proof.Gen.ReferenceIdeal.Read
import proofs.«101349_j30296699306118_2_alg».proof.Proof.Spec
import Idealize.ShloMosaic.Lib.Pipeline.Value
import Idealize.ShloMosaic.Lib.ValueIdx
import Idealize.ShloMosaic.PureOps.Ideal.Laws

noncomputable section

open scoped BigOperators

namespace Cert.AttnPool.Ref

open Cert.ReferenceIdeal Cert.ReferenceIdeal.Gen Cert.ReferenceIdeal.Read Idealize.ShloMosaic Idealize.ShloMosaic.ValueIdx
open Cert.AttnPool

variable (x0 : (⟨S4096x1x64, .f32⟩ : BufTy).Contents (Elt Ideal)) (x1 : (⟨S4096x200x64, .f32⟩ : BufTy).Contents (Elt Ideal))
  (x2 : (⟨S4096x1, .i32⟩ : BufTy).Contents (Elt Ideal)) (x3 : (⟨S128x1, .f32⟩ : BufTy).Contents (Elt Ideal))
  (x4 : (⟨S1, .f32⟩ : BufTy).Contents (Elt Ideal))

/-- Row b's query. -/
abbrev qOf (b : Fin 4096) : Fin 64 → EReal := fun c => x0 (ix3 b (0 : Fin 1) c)
/-- Row b's keys. -/
abbrev kOf (b : Fin 4096) : Fin 200 → Fin 64 → EReal := fun t c => x1 (ix3 b t c)
/-- The weight column as a vector. -/
abbrev wOf : Fin 128 → EReal := fun j => x3 (ix2 j (0 : Fin 1))

/-- The concatenation [q broadcast over t, keys] at (b, t, j) in the first half is q's entry. -/
theorem cat_lo (b : Fin 4096) (t : Fin 200) (c : Fin 64) :
    val_main_v1 (F := Ideal) x0 x1 (ix3 b t (lo c)) = x0 (ix3 b (0 : Fin 1) c) := by
  unfold val_main_v1
  refine (concatenate_pair_apply_left 2 (val_main_v0 (F := Ideal) x0) x1 concatenates_S4096x200x64_S4096x200x64_S4096x200x128_d2
    (ix3 b t (lo c)) rfl (ix3 b t c) (fun a => by
      match a with
      | ⟨0, _⟩ => rfl
      | ⟨1, _⟩ => rfl
      | ⟨2, _⟩ => rfl)).trans ?_
  rw [val_main_v0_apply]
  exact congrArg x0 (funext fun a => Fin.ext (by
    match a with
    | ⟨0, _⟩ => rfl
    | ⟨1, _⟩ => rfl
    | ⟨2, _⟩ => rfl))

/-- In the second half it is the key's entry. -/
theorem cat_hi (b : Fin 4096) (t : Fin 200) (c : Fin 64) :
    val_main_v1 (F := Ideal) x0 x1 (ix3 b t (hi c)) = x1 (ix3 b t c) := by
  unfold val_main_v1
  exact concatenate_pair_apply_right 2 (val_main_v0 (F := Ideal) x0) x1 concatenates_S4096x200x64_S4096x200x64_S4096x200x128_d2
    (ix3 b t (hi c)) rfl rfl (ix3 b t c) (fun a ha => by
      match a with
      | ⟨0, _⟩ => rfl
      | ⟨1, _⟩ => rfl
      | ⟨2, _⟩ => exact absurd rfl ha)
    (by show c.val + 64 = 64 + c.val; omega)

/-- The first contraction at (b, t, 0): the two half sums. -/
theorem dot_at (b : Fin 4096) (t : Fin 200) :
    val_main_v2 (F := Ideal) x0 x1 x3 (ix3 b t (0 : Fin 1))
      = (∑ c : Fin 64, qOf x0 b c * wOf x3 (lo c)) + ∑ c : Fin 64, kOf x1 b t c * wOf x3 (hi c) := by
  rw [val_main_v2_apply, sum_halves]
  have el : ∀ j : Fin 128, lidx_main_v2 (ix3 b t (0 : Fin 1)) j = ix3 b t j := fun j => funext fun a => Fin.ext (by
    match a with
    | ⟨0, _⟩ => rfl
    | ⟨1, _⟩ => rfl
    | ⟨2, _⟩ => rfl)
  have er : ∀ j : Fin 128, ridx_main_v2 (ix3 b t (0 : Fin 1)) j = ix2 j (0 : Fin 1) := fun j => funext fun a => Fin.ext (by
    match a with
    | ⟨0, _⟩ => rfl
    | ⟨1, _⟩ => rfl)
  simp only [el, er, cat_lo, cat_hi]

/-- The masked, transposed tanh at (b, 0, t) is row b's score of position t. -/
theorem score_at (b : Fin 4096) (t : Fin 200) :
    val_main_v14 (F := Ideal) x0 x1 x2 x3 x4 (ix3 b (0 : Fin 1) t)
      = score (qOf x0 b) (kOf x1 b) (x2 (ix2 b (0 : Fin 1))) (wOf x3) (x4 (ix1 (0 : Fin 1))) t := by
  have e7 : idx_main_v7 (ix3 b (0 : Fin 1) t) = ix3 b t (0 : Fin 1) := funext fun a => Fin.ext (by
    match a with
    | ⟨0, _⟩ => rfl
    | ⟨1, _⟩ => rfl
    | ⟨2, _⟩ => rfl)
  have e10 : idx_main_v10 (idx_main_v12 (ix3 b (0 : Fin 1) t)) = ix2 b (0 : Fin 1) := funext fun a => Fin.ext (by
    match a with
    | ⟨0, _⟩ => rfl
    | ⟨1, _⟩ => rfl)
  have e3 : idx_main_v3 (idx_main_v4 (ix3 b t (0 : Fin 1))) = ix1 (0 : Fin 1) := funext fun a => Fin.ext (by
    match a with
    | ⟨0, _⟩ => rfl)
  rw [val_main_v14_apply, val_main_v13_apply, val_main_v11_apply, val_main_v9_apply, val_main_v8_apply, val_main_v12_apply,
    val_main_v10_apply, val_main_v7_apply, val_main_v6_apply, val_main_v5_apply, val_main_v4_apply, val_main_v3_apply,
    val_main_call0_v0_apply, val_main_cst_apply, e7, e10, e3, dot_at]
  rfl

/-- The reduce of max from -inf over a row's positions, then the maximum with -inf, is the row's top score. -/
theorem top_at (b : Fin 4096) :
    val_main_v17 (F := Ideal) x0 x1 x2 x3 x4 (ix2 b (0 : Fin 1))
      = top (score (qOf x0 b) (kOf x1 b) (x2 (ix2 b (0 : Fin 1))) (wOf x3) (x4 (ix1 (0 : Fin 1)))) := by
  have h : S4096x1x200.Reduces [2] S4096x1 := by decide
  have hl : ∀ t : Fin 200, h.lift (ix2 b (0 : Fin 1)) t = ix3 b (0 : Fin 1) t := fun t => funext fun a => Fin.ext (by
    match a with
    | ⟨0, _⟩ => rfl
    | ⟨1, _⟩ => rfl
    | ⟨2, _⟩ => rfl)
  have hf : (val_main_v14 (F := Ideal) x0 x1 x2 x3 x4 ∘ h.lift (ix2 b (0 : Fin 1)))
      = score (qOf x0 b) (kOf x1 b) (x2 (ix2 b (0 : Fin 1))) (wOf x3) (x4 (ix1 (0 : Fin 1))) :=
    funext fun t => (congrArg (val_main_v14 (F := Ideal) x0 x1 x2 x3 x4) (hl t)).trans (score_at x0 x1 x2 x3 x4 b t)
  rw [val_main_v17_apply, val_main_v16_apply, val_main_cst_1_apply]
  unfold val_main_v15
  rw [Host.reduce_eq_fold_single FloatOps.maximumf _ _ reducesTo_S4096x1x200_S4096x1_d2 h h_S_, hf]
  exact max_top _

/-- exp of the score less the row's top. -/
theorem ex_at (b : Fin 4096) (t : Fin 200) :
    val_main_v21 (F := Ideal) x0 x1 x2 x3 x4 (ix3 b (0 : Fin 1) t)
      = ex (score (qOf x0 b) (kOf x1 b) (x2 (ix2 b (0 : Fin 1))) (wOf x3) (x4 (ix1 (0 : Fin 1)))) t := by
  have e18 : idx_main_v18 (idx_main_v19 (ix3 b (0 : Fin 1) t)) = ix2 b (0 : Fin 1) := funext fun a => Fin.ext (by
    match a with
    | ⟨0, _⟩ => rfl
    | ⟨1, _⟩ => rfl)
  rw [val_main_v21_apply, val_main_v20_apply, val_main_v19_apply, val_main_v18_apply, e18, top_at, score_at]
  rfl

/-- The quotient by the row's sum of those is the softmax weight. -/
theorem weight_at (b : Fin 4096) (t : Fin 200) :
    val_main_v25 (F := Ideal) x0 x1 x2 x3 x4 (ix3 b (0 : Fin 1) t)
      = weight (score (qOf x0 b) (kOf x1 b) (x2 (ix2 b (0 : Fin 1))) (wOf x3) (x4 (ix1 (0 : Fin 1)))) t := by
  have e23 : idx_main_v23 (idx_main_v24 (ix3 b (0 : Fin 1) t)) = ix2 b (0 : Fin 1) := funext fun a => Fin.ext (by
    match a with
    | ⟨0, _⟩ => rfl
    | ⟨1, _⟩ => rfl)
  have e22 : ∀ u : Fin 200, idx_main_v22 (ix2 b (0 : Fin 1)) u = ix3 b (0 : Fin 1) u := fun u => funext fun a => Fin.ext (by
    match a with
    | ⟨0, _⟩ => rfl
    | ⟨1, _⟩ => rfl
    | ⟨2, _⟩ => rfl)
  rw [val_main_v25_apply, val_main_v24_apply, val_main_v23_apply, e23, val_main_v22_apply, val_main_cst_2_apply, ex_at]
  simp only [e22, ex_at]
  show Ideal.div _ (Ideal.ofBits .f32 0x00000000#32 + _) = _
  rw [Ideal.ofBits_zero_f32, zero_add]
  rfl

/-- The last contraction at (b, 0, c): the weighted sum of the keys' entries c. -/
theorem pooled_at (b : Fin 4096) (c : Fin 64) :
    val_main_v26 (F := Ideal) x0 x1 x2 x3 x4 (ix3 b (0 : Fin 1) c) = poolRow x0 x1 x2 x3 x4 b c := by
  have el : ∀ t : Fin 200, lidx_main_v26 (ix3 b (0 : Fin 1) c) t = ix3 b (0 : Fin 1) t := fun t => funext fun a => Fin.ext (by
    match a with
    | ⟨0, _⟩ => rfl
    | ⟨1, _⟩ => rfl
    | ⟨2, _⟩ => rfl)
  have er : ∀ t : Fin 200, ridx_main_v26 (ix3 b (0 : Fin 1) c) t = ix3 b t c := fun t => funext fun a => Fin.ext (by
    match a with
    | ⟨0, _⟩ => rfl
    | ⟨1, _⟩ => rfl
    | ⟨2, _⟩ => rfl)
  rw [val_main_v26_apply]
  simp only [el, er, weight_at]
  rfl

/-- The reference's result array is the pooled array of its arguments. -/
theorem result_eq : val_main_v26 (F := Ideal) x0 x1 x2 x3 x4 = poolAll x0 x1 x2 x3 x4 := by
  funext i
  obtain ⟨b, u, c, rfl⟩ : ∃ (b : Fin 4096) (u : Fin 1) (c : Fin 64), i = ix3 b u c := ⟨i 0, i 1, i 2, eq_ix3 i⟩
  obtain rfl : u = 0 := Subsingleton.elim _ _
  rw [pooled_at, poolAll_ix3]

end Cert.AttnPool.Ref

end
-- ==== Proof.lean ====
/-
  Attention pooling: a blocked kernel against its whole-array reference, equal over the extended reals.

  Both programs compute, for each of 4096 batch rows, the softmax-weighted sum of the row's 200 keys, where the
  score of a key is tanh([q, k] · W + b) at positions below the row's length and the finite pad -2^32 elsewhere,
  and the softmax is taken from the row's maximum. They differ only in arrangement. The reference concatenates
  the broadcast query with the keys and contracts the 128 entries with W at once; the kernel sums the query's
  half and the keys' half apart (each from zero) and adds them — equal because a sum over 128 terms splits into
  its halves' sums in any commutative monoid, the extended reals with their addition included, so no finiteness
  of the inputs is used. The reference's softmax takes a further maximum of -inf with the row maximum, which is
  the row maximum since that is a fold of max started at -inf. The kernel rounds the weights and keys to bf16
  before its batched matrix product, which is the identity on extended reals, and accumulates into zero, while
  the reference's dot_general is the same sum. The kernel works on blocks of 128 rows; each row's value depends
  on that row only, so block t of the result is rows 128 t … 128 t + 127 of the one whole-array function, and
  the 32 blocks cover the array.

  The three frames: the kernel's two are the frame theorems of its run; the reference's is its run with the
  result dropped. The idealized kernel is the kernel's own text read over the extended reals (no rewrite), so
  there is nothing to preserve.
-/
import proofs.«101349_j30296699306118_2_alg».proof.Defs
import proofs.«101349_j30296699306118_2_alg».proof.Proof.Gen.Kernel
import proofs.«101349_j30296699306118_2_alg».proof.Proof.Gen.Kernel.Skeleton
import proofs.«101349_j30296699306118_2_alg».proof.Proof.Gen.Kernel.Launch
import proofs.«101349_j30296699306118_2_alg».proof.Proof.Gen.Kernel.Points
import proofs.«101349_j30296699306118_2_alg».proof.Proof.Gen.Kernel.Frame
import proofs.«101349_j30296699306118_2_alg».proof.Proof.Gen.KernelIdeal
import proofs.«101349_j30296699306118_2_alg».proof.Proof.Gen.KernelIdeal.Skeleton
import proofs.«101349_j30296699306118_2_alg».proof.Proof.Gen.KernelIdeal.Launch
import proofs.«101349_j30296699306118_2_alg».proof.Proof.Gen.KernelIdeal.Points
import proofs.«101349_j30296699306118_2_alg».proof.Proof.Gen.KernelIdeal.Frame
import proofs.«101349_j30296699306118_2_alg».proof.Proof.Gen.ReferenceIdeal
import proofs.«101349_j30296699306118_2_alg».proof.Proof.Gen.Pre_finite_inputs
import proofs.«101349_j30296699306118_2_alg».proof.Proof.Gen.KernelIdeal.Value
import proofs.«101349_j30296699306118_2_alg».proof.Proof.Gen.ReferenceIdeal.Run
import proofs.«101349_j30296699306118_2_alg».proof.Proof.Gen.ReferenceIdeal.Read
import proofs.«101349_j30296699306118_2_alg».proof.Proof.PoolArray
import proofs.«101349_j30296699306118_2_alg».proof.Proof.RefRow
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the pooled array of the (agreeing) arguments. -/
theorem algebraic : Cert.algebraic_KernelIdeal_ReferenceIdeal := by
  intro m ρ m' ρ' _ hagree
  refine ⟨fun c => Cert.AttnPool.Arr.result m c, Cert.AttnPool.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.AttnPool.Ref.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
